-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x512 : Shape := ⟨2, ![512, 512]⟩
abbrev S512 : Shape := ⟨1, ![512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S131072x512 .f32) (main_arg1 : FVec F S512x512 .f32) (main_arg2 : FVec F S512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S131072x512 : Shape := ⟨2, ![131072, 512]⟩
abbrev S512x512 : Shape := ⟨2, ![512, 512]⟩
abbrev S512 : Shape := ⟨1, ![512]⟩
abbrev S2048x512 : Shape := ⟨2, ![2048, 512]⟩
abbrev S1x512 : Shape := ⟨2, ![1, 512]⟩

abbrev nBuf : Space → Nat
  | .hbm => 5
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S131072x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S512, .f32⟩
  | .local _ .vmem, ⟨4, _⟩ => ⟨S2048x512, .f32⟩
  | .local _ .vmem, ⟨5, _⟩ => ⟨S2048x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x512_S512x512_1_0 : S512x512.Transposes [1, 0] S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 16
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S512x512, .f32⟩
  | .hbm, ⟨5, _⟩ => ⟨S512x512, .i1⟩
  | .hbm, ⟨6, _⟩ => ⟨S_, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S131072x512, .f32⟩
  | .hbm, ⟨13, _⟩ => ⟨S1x512, .f32⟩
  | .hbm, ⟨14, _⟩ => ⟨S131072x512, .f32⟩
  | .hbm, ⟨15, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  dot_S131072x512_S512x512_S131072x512_1_1_0_0_n_n_wf : DotDims.WF S131072x512 S512x512 S131072x512 [1] [1] [0] [0] [] []

variable [Facts₀]

def dot_S131072x512_S512x512_S131072x512_1_1_0_0_n_n : DotDims S131072x512 S512x512 S131072x512 where
  lhsContracting := [1]
  rhsContracting := [1]
  lhsNonContracting := [0]
  rhsNonContracting := [0]
  lhsBatch := []
  rhsBatch := []
  wf := dot_S131072x512_S512x512_S131072x512_1_1_0_0_n_n_wf

class Facts : Prop extends Facts₀ where

variable [Facts]
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibAffineBodies.lean ====
/-
  The arithmetic of the five kinds of kernel body, over the extended reals.

  Every body works on a tile of rows.  A "linear" body multiplies the tile `x` ([M, K]) by a weight matrix `w`
  ([K, N]) and adds a row vector `b` ([1, N]) to every row: entry (p, q) is `∑ k, x (p, k) * w (k, q) + b (0, q)`
  (the narrowing of both operands before the product is the identity on extended reals).  It may then clamp at
  zero from below, or apply the logistic function.  A "bias" body adds the row vector to every row of the tile
  and clamps at zero.  Each lemma below says that the body's chain of vector operations is that entrywise
  function.
-/
import Idealize.ShloMosaic.PureOps.Ideal.Laws
import Idealize.ShloMosaic.Lib.ValueIdx
import Idealize.ShloMosaic.Lib.ValueLayout
import Idealize.ShloMosaic.Lib.Pipeline.Value
import proofs.«128935_j27994596835418_1_alg».proof.Proof.LibMatmul

noncomputable section

open scoped BigOperators
open Idealize.ShloMosaic Idealize.ShloMosaic.ValueIdx

namespace Gcn

variable {M K N : ℕ}

/-- Matrices of extended reals, indexed by the shape's multi-indices. -/
abbrev Mat (M N : ℕ) : Type := (⟨2, ![M, N]⟩ : Shape).Idx → EReal

/-- `x · w + b`, the row vector `b` added to every row. -/
def affine (x : Mat M K) (w : Mat K N) (b : Mat 1 N) : Mat M N :=
  fun i => (∑ k : Fin K, x (ix2 (i 0) k) * w (ix2 k (i 1))) + b (ix2 0 (i 1))

/-- `max (a + b) 0`, the row vector `b` added to every row. -/
def biasRelu (a : Mat M N) (b : Mat 1 N) : Mat M N :=
  fun i => max (a i + b (ix2 0 (i 1))) 0

/-- `max (x · w + b) 0`. -/
def affineRelu (x : Mat M K) (w : Mat K N) (b : Mat 1 N) : Mat M N :=
  fun i => max (affine x w b i) 0

/-- The logistic function of `x · w + b`. -/
def affineLogistic (x : Mat M K) (w : Mat K N) (b : Mat 1 N) : Mat M N :=
  fun i => Ideal.logistic (affine x w b i)

/-- A row vector broadcast down the rows, read at an entry. -/
theorem rowBroadcast_apply (b : FVec Ideal (⟨2, ![1, N]⟩ : Shape) .f32)
    (hb : (⟨2, ![1, N]⟩ : Shape).Broadcasts (⟨2, ![M, N]⟩ : Shape)) (p : Fin M) (q : Fin N) :
    broadcastTo (⟨2, ![M, N]⟩ : Shape) b hb (ix2 p q) = b (ix2 0 q) := by
  refine broadcastTo_apply b hb (ix2 p q) (ix2 0 q) fun a => ?_
  match a with
  | ⟨0, _⟩ => exact (if_pos rfl).symm
  | ⟨1, _⟩ =>
    show q.val = if N = 1 then 0 else q.val
    split
    · have := q.isLt; omega
    · rfl

/-- The clamp at zero, read at an entry. -/
theorem clamp_apply (a : FVec Ideal (⟨2, ![M, N]⟩ : Shape) .f32) (i : (⟨2, ![M, N]⟩ : Shape).Idx) :
    maximumf a (broadcast (⟨2, ![M, N]⟩ : Shape) (Scalar.ofBits (F := Ideal) .f32 0x00000000#32)) i = max (a i) 0 := by
  rw [maximumf_apply, broadcast_apply]
  show max _ (Ideal.ofBits .f32 0x00000000#32) = _
  rw [Ideal.ofBits_zero_f32]

/-- The linear body: product into the zero matrix, then the row vector added. -/
theorem linear_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    addf (matmul d none (truncf .bf16 x h1) (truncf .bf16 w h2) (constant (⟨2, ![M, N]⟩ : Shape) .f32 0x00000000#32))
        (broadcastTo (⟨2, ![M, N]⟩ : Shape) b hb)
      = affine x w b := by
  funext i
  obtain ⟨p, q, rfl⟩ : ∃ (p : Fin M) (q : Fin N), i = ix2 p q := ⟨i 0, i 1, eq_ix2 i⟩
  rw [addf_apply, rowBroadcast_apply]
  refine congrArg (· + b (ix2 0 q)) ?_
  exact PlainMatmul.apply hd none (truncf .bf16 x h1) (truncf .bf16 w h2) p q

/-- The linear body followed by the clamp at zero. -/
theorem linear_relu_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    maximumf (addf (matmul d none (truncf .bf16 x h1) (truncf .bf16 w h2) (constant (⟨2, ![M, N]⟩ : Shape) .f32 0x00000000#32))
        (broadcastTo (⟨2, ![M, N]⟩ : Shape) b hb))
        (broadcast (⟨2, ![M, N]⟩ : Shape) (Scalar.ofBits (F := Ideal) .f32 0x00000000#32))
      = affineRelu x w b := by
  rw [linear_body hd x w b h1 h2 hb]
  funext i
  exact clamp_apply _ i

/-- The linear body followed by the logistic function. -/
theorem linear_logistic_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    logistic (addf (matmul d none (truncf .bf16 x h1) (truncf .bf16 w h2) (constant (⟨2, ![M, N]⟩ : Shape) .f32 0x00000000#32))
        (broadcastTo (⟨2, ![M, N]⟩ : Shape) b hb))
      = affineLogistic x w b := by
  rw [linear_body hd x w b h1 h2 hb]
  rfl

/-- The bias body: the row vector added, then the clamp at zero. -/
theorem bias_body (a : FVec Ideal (⟨2, ![M, N]⟩ : Shape) .f32) (b : FVec Ideal (⟨2, ![1, N]⟩ : Shape) .f32)
    (hb : (⟨2, ![1, N]⟩ : Shape).Broadcasts (⟨2, ![M, N]⟩ : Shape)) :
    maximumf (addf a (broadcastTo (⟨2, ![M, N]⟩ : Shape) b hb))
        (broadcast (⟨2, ![M, N]⟩ : Shape) (Scalar.ofBits (F := Ideal) .f32 0x00000000#32))
      = biasRelu a b := by
  funext i
  obtain ⟨p, q, rfl⟩ : ∃ (p : Fin M) (q : Fin N), i = ix2 p q := ⟨i 0, i 1, eq_ix2 i⟩
  rw [clamp_apply, addf_apply, rowBroadcast_apply]
  rfl

/-! ## Two entries agree when the rows they depend on agree -/

theorem affine_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affine X W B j = affine A W' B' i := by
  subst hW hB
  have e : (j 1 : Fin N) = i 1 := Fin.ext h1
  show (∑ k : Fin K, X (ix2 (j 0) k) * W (ix2 k (j 1))) + B (ix2 0 (j 1))
    = (∑ k : Fin K, A (ix2 (i 0) k) * W (ix2 k (i 1))) + B (ix2 0 (i 1))
  rw [e]
  exact congrArg (· + B (ix2 0 (i 1))) (Finset.sum_congr rfl fun k _ => by rw [hX k])

theorem affineRelu_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineRelu X W B j = affineRelu A W' B' i := by
  unfold affineRelu
  rw [affine_congr j i hW hB hX h1]

theorem affineLogistic_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineLogistic X W B j = affineLogistic A W' B' i := by
  unfold affineLogistic
  rw [affine_congr j i hW hB hX h1]

theorem biasRelu_congr {M' : ℕ} {X : Mat M N} {B B' : Mat 1 N} {A : Mat M' N}
    (j : (⟨2, ![M, N]⟩ : Shape).Idx) (i : (⟨2, ![M', N]⟩ : Shape).Idx)
    (hB : B = B') (hX : X j = A i) (h1 : (j 1).val = (i 1).val) :
    biasRelu X B j = biasRelu A B' i := by
  subst hB
  have e : (j 1 : Fin N) = i 1 := Fin.ext h1
  show max (X j + B (ix2 0 (j 1))) 0 = max (A i + B (ix2 0 (i 1))) 0
  rw [e, hX]

end Gcn

end
-- ==== Proof.BinLinear.lean ====
/-
  A linear layer whose weight matrix is replaced by its signs.

  The weight `w` has one row per output feature.  Each entry is replaced by `+1` where it is at least zero and by
  `-1` elsewhere, and the layer's output at row `b`, feature `o` is

      out (b, o) = ∑ i, x (b, i) * sgn (w (o, i)) + bias o

  over the extended reals.  The sum runs over the input features of the one row `b` of `x` and the one row `o` of
  `w`; nothing else of the arrays enters the entry.  The three float literals (zero, one, minus one) are kept as
  their binary words: the same words stand on both sides of every equation below, so they are never evaluated.
-/
import Idealize.ShloMosaic.PureOps.Ideal.Laws
import Idealize.ShloMosaic.Lib.ValueIdx

noncomputable section

open scoped BigOperators
open Idealize.ShloMosaic Idealize.ShloMosaic.ValueIdx

namespace BinLinear

/-- The sign a weight is replaced by: `+1` where the weight is at least zero, `-1` elsewhere. -/
def sgn (w : EReal) : EReal :=
  Scalar.select (FloatOps.cmpf (F := Ideal) (φ := .f32) .oge w (FloatOps.ofBits (F := Ideal) .f32 0x00000000#32))
    (FloatOps.ofBits (F := Ideal) .f32 0x3F800000#32) (FloatOps.ofBits (F := Ideal) .f32 0xBF800000#32)

/-- The layer's output: entry `(b, o)` is the sum over the input features `i` of `x (b, i)` times the sign of
    `w (o, i)`, plus `bias o`. -/
def out (x : (⟨2, ![131072, 512]⟩ : Shape).Idx → EReal) (w : (⟨2, ![512, 512]⟩ : Shape).Idx → EReal)
    (bias : (⟨1, ![512]⟩ : Shape).Idx → EReal) : (⟨2, ![131072, 512]⟩ : Shape).Idx → EReal :=
  fun j => (∑ i : Fin 512, x (ix2 (j 0) i) * sgn (w (ix2 (j 1) i))) + bias (ix1 (j 1))

/-- The entry `(b, o)` written out. -/
theorem out_apply (x : (⟨2, ![131072, 512]⟩ : Shape).Idx → EReal) (w : (⟨2, ![512, 512]⟩ : Shape).Idx → EReal)
    (bias : (⟨1, ![512]⟩ : Shape).Idx → EReal) (b : Fin 131072) (o : Fin 512) :
    out x w bias (ix2 b o) = (∑ i : Fin 512, x (ix2 b i) * sgn (w (ix2 o i))) + bias (ix1 o) := rfl

/-- An entry computed from a tile of rows of `x`, the TRANSPOSED weight and the bias is the layer's entry, when
    the tile's row is the array's row, the transposed weight at `(i, o)` is the weight at `(o, i)`, and the
    column is the same: the two sums have the same terms. -/
theorem entry_of_tile {R : ℕ} (X : (⟨2, ![131072, 512]⟩ : Shape).Idx → EReal) (W : (⟨2, ![512, 512]⟩ : Shape).Idx → EReal)
    (B : (⟨1, ![512]⟩ : Shape).Idx → EReal)
    (x : (⟨2, ![R, 512]⟩ : Shape).Idx → EReal) (wt : (⟨2, ![512, 512]⟩ : Shape).Idx → EReal)
    (b : (⟨1, ![512]⟩ : Shape).Idx → EReal)
    (p : Fin R) (q : Fin 512) (j : (⟨2, ![131072, 512]⟩ : Shape).Idx)
    (hx : ∀ i : Fin 512, x (ix2 p i) = X (ix2 (j 0) i))
    (hw : ∀ i : Fin 512, wt (ix2 i q) = W (ix2 (j 1) i))
    (hb : b (ix1 q) = B (ix1 (j 1))) :
    (∑ i : Fin 512, x (ix2 p i) * sgn (wt (ix2 i q))) + b (ix1 q) = out X W B j := by
  unfold out
  rw [hb]
  exact congrArg (· + B (ix1 (j 1))) (Finset.sum_congr rfl fun i _ => by rw [hx i, hw i])

end BinLinear

end
-- ==== Proof.Body.lean ====
/-
  What the kernel body stores, at an entry.

  The body takes a tile `x` of 2048 rows, the transposed weight `wt` (input features down the rows, output
  features across the columns) and the bias `b`.  It replaces every entry of `wt` by its sign, multiplies the
  tile by the signs (a plain matrix product into the zero matrix; narrowing the operands is the identity on
  extended reals), and adds the bias to every row.  So the stored tile's entry `(p, q)` is

      ∑ i, x (p, i) * sgn (wt (i, q)) + b q.
-/
import proofs.«128935_j27994596835418_1_alg».proof.Proof.Gen.KernelIdeal.Skeleton
import proofs.«128935_j27994596835418_1_alg».proof.Proof.LibAffineBodies
import proofs.«128935_j27994596835418_1_alg».proof.Proof.BinLinear
import Idealize.ShloMosaic.Lib.ValueLayout

noncomputable section

open scoped BigOperators
open Idealize.ShloMosaic Idealize.ShloMosaic.ValueIdx

namespace Cert.KernelIdeal.Body

open Cert.KernelIdeal Cert.KernelIdeal.Gen

/-- The product's dimension numbers are the plain ones: rows of the tile against columns of the signs. -/
theorem plain : PlainMatmul.IsPlain dot_S2048x512_S512x512_S2048x512_1_0_0_1_n_n :=
  ⟨rfl, rfl, rfl, rfl, rfl, rfl⟩

/-- Comparing every entry with zero and choosing between the two constants is the sign, entry by entry (the
    cast of the loaded matrix to its own shape changes nothing). -/
theorem signs_eq (wt : Vec Ideal S512x512 .f32) :
    select (cmpf .oge (shapeCast S512x512 wt shapeCasts_S512x512_S512x512)
        (broadcast S512x512 (Scalar.ofBits (F := Ideal) .f32 0x00000000#32)))
      (broadcast S512x512 (Scalar.ofBits (F := Ideal) .f32 0x3F800000#32))
      (broadcast S512x512 (Scalar.ofBits (F := Ideal) .f32 0xBF800000#32))
    = fun i => BinLinear.sgn (wt i) := by
  rw [shapeCast_self]
  rfl

/-- The stored tile is the tile times the signs plus the bias row. -/
theorem pay_eq (wt : Vec Ideal S512x512 .f32) (x : Vec Ideal S2048x512 .f32) (b : Vec Ideal S512 .f32) :
    k0_pay1 (F := Ideal) wt x b
      = Gcn.affine (M := 2048) (K := 512) (N := 512) x (fun i => BinLinear.sgn (wt i))
          (shapeCast S1x512 b shapeCasts_S512_S1x512) := by
  unfold k0_pay1
  refine (Gcn.linear_body plain x _ (shapeCast S1x512 b shapeCasts_S512_S1x512) bitsLt_bf16_f32 bitsLt_bf16_f32
    broadcasts_S1x512_S2048x512).trans ?_
  exact congrArg (fun w => Gcn.affine (M := 2048) (K := 512) (N := 512) x w (shapeCast S1x512 b shapeCasts_S512_S1x512))
    (signs_eq wt)

/-- The stored tile at the entry `(p, q)`. -/
theorem pay_apply (wt : Vec Ideal S512x512 .f32) (x : Vec Ideal S2048x512 .f32) (b : Vec Ideal S512 .f32)
    (p : Fin 2048) (q : Fin 512) :
    k0_pay1 (F := Ideal) wt x b (ix2 p q)
      = (∑ i : Fin 512, x (ix2 p i) * BinLinear.sgn (wt (ix2 i q))) + b (ix1 q) := by
  rw [pay_eq]
  show (∑ i : Fin 512, x (ix2 p i) * BinLinear.sgn (wt (ix2 i q)))
      + shapeCast S1x512 b shapeCasts_S512_S1x512 (ix2 (0 : Fin 1) q) = _
  rw [shapeCast_a_1a_apply]

/-- The stored tile's entry `j` is the layer's entry `i` of the whole arrays `X`, `W`, `B`, when row `j 0` of the
    tile is row `i 0` of `X`, column `j 1` of the transposed weight is row `i 1` of `W`, and the bias entries
    agree. -/
theorem tile_entry (X : S131072x512.Idx → EReal) (W : S512x512.Idx → EReal) (B : S512.Idx → EReal)
    (wt : Vec Ideal S512x512 .f32) (x : Vec Ideal S2048x512 .f32) (b : Vec Ideal S512 .f32)
    (j : S2048x512.Idx) (i : S131072x512.Idx)
    (hx : ∀ k : Fin 512, x (ix2 (j 0) k) = X (ix2 (i 0) k))
    (hw : ∀ k : Fin 512, wt (ix2 k (j 1)) = W (ix2 (i 1) k))
    (hb : b (ix1 (j 1)) = B (ix1 (i 1))) :
    k0_pay1 (F := Ideal) wt x b j = BinLinear.out X W B i :=
  (congrArg (k0_pay1 (F := Ideal) wt x b) (eq_ix2 j)).trans
    ((pay_apply wt x b (j 0) (j 1)).trans (BinLinear.entry_of_tile X W B x wt b (j 0) (j 1) i hx hw hb))

end Cert.KernelIdeal.Body

end
-- ==== Proof.KernelValue.lean ====
/-
  The kernel's result array, as one function of the argument arrays.

  The grid has 64 points.  Point `t` takes rows `2048 t … 2048 t + 2047` of `x`, the whole transposed weight and
  the whole bias, and writes rows `2048 t … 2048 t + 2047` of the result.  The transposed weight is made on the
  host before the launch: its entry `(i, o)` is the weight's entry `(o, i)`.  So what point `t` writes back is
  block `t` of the layer's output `BinLinear.out x weight bias`; the 64 blocks tile the result's rows, and the
  result array ends holding that function everywhere.
-/
import proofs.«128935_j27994596835418_1_alg».proof.Proof.Gen.KernelIdeal.Value
import proofs.«128935_j27994596835418_1_alg».proof.Proof.Body
import Idealize.ShloMosaic.Lib.ValueLayout
import Idealize.ShloMosaic.Lib.StableHlo.Run

noncomputable section

namespace Cert.KernelIdeal.OutValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a; rfl

/-- The block indices over the grid: the tile of `x` and the result's block move together down the rows, and
    every other block index is zero (the weight and the bias are one block each; a block is full width). -/
theorem idx_facts : ∀ t : Fin cfg0.N, win0_0.index t (0 : Fin 2) = win0_3.index t (0 : Fin 2)
    ∧ win0_0.index t (1 : Fin 2) = 0
    ∧ win0_3.index t (1 : Fin 2) = 0
    ∧ win0_1.index t (0 : Fin 2) = 0
    ∧ win0_1.index t (1 : Fin 2) = 0
    ∧ win0_2.index t (0 : Fin 1) = 0 :=
  (by decide +kernel : ∀ t : Fin grid0.N, _)

/-- Every one of the 64 row blocks of the result is some point's. -/
theorem idx_onto : ∀ q0 : Fin 64, ∃ t : Fin cfg0.N, win0_3.index t = ![q0.val, 0] :=
  (by decide +kernel : ∀ q0 : Fin 64, ∃ t : Fin grid0.N, win0_3.index t = ![q0.val, 0])

/-- The transposed weight the region finds is the host's transpose of the weight argument. -/
theorem weightT_eq (c : Dev nD) :
    (V m c main_v0 : S512x512.Idx → EReal)
      = transpose S512x512 [1, 0] (m ((c : Thread nD τ).loc main_arg1)) transposes_S512x512_S512x512_1_0 := by
  dsimp only [Gen.V, Gen.hostOps0]; after_results <;> rfl

/-- WHAT POINT `t` WRITES BACK is block `t` of the layer's output of the argument arrays. -/
theorem flushed_eq (c : Dev nD) (t : Fin cfg0.N) :
    (dats m 0 c).flushed 3 t = ((cfg0.win 3).blk t).view.read (Elt Ideal)
      (BinLinear.out (m ((c : Thread nD τ).loc main_arg0)) (m ((c : Thread nD τ).loc main_arg1))
        (m ((c : Thread nD τ).loc main_arg2))) := by
  rw [Value.flushed3]
  unfold out0_3
  rw [View.canon_unit_zero origin2]
  simp only [View.ld_unit_zero (S := S2048x512) origin2, View.ld_unit_zero (S := S512x512) origin2,
    View.ld_unit_zero (S := S512) origin1]
  obtain ⟨e0, e1, e2, e3, e4, e5⟩ := idx_facts t
  funext j
  show k0_pay1 (F := Ideal) (iblk m c 1 t) (iblk m c 0 t) (iblk m c 2 t) j
    = BinLinear.out _ _ _ (((cfg0.win 3).blk t).view.emb j)
  refine Body.tile_entry _ _ _ (iblk m c 1 t) (iblk m c 0 t) (iblk m c 2 t) j _ ?_ ?_ ?_
  · intro k
    show V m c main_arg0 (((cfg0.win 0).blk t).view.emb (ix2 (j 0) k)) = _
    rw [V_main_arg0]
    refine congrArg _ (funext fun a => Fin.ext ?_)
    match a with
    | ⟨0, _⟩ =>
      show win0_0.index t (0 : Fin 2) * 2048 + 1 * (j 0).val = win0_3.index t (0 : Fin 2) * 2048 + 1 * (j 0).val
      omega
    | ⟨1, _⟩ =>
      show win0_0.index t (1 : Fin 2) * 512 + 1 * k.val = k.val
      omega
  · intro k
    show V m c main_v0 (((cfg0.win 1).blk t).view.emb (ix2 k (j 1))) = _
    rw [weightT_eq]
    have hi : ((cfg0.win 1).blk t).view.emb (ix2 k (j 1)) = ix2 k ((((cfg0.win 3).blk t).view.emb j) 1) := by
      funext a; apply Fin.ext
      match a with
      | ⟨0, _⟩ =>
        show win0_1.index t (0 : Fin 2) * 512 + 1 * k.val = k.val
        omega
      | ⟨1, _⟩ =>
        show win0_1.index t (1 : Fin 2) * 512 + 1 * (j 1).val = win0_3.index t (1 : Fin 2) * 512 + 1 * (j 1).val
        omega
    rw [hi]
    exact transpose_ix2_apply _ _ _ _
  · show V m c main_arg2 (((cfg0.win 2).blk t).view.emb (ix1 (j 1))) = _
    rw [V_main_arg2]
    refine congrArg _ (funext fun a => Fin.ext ?_)
    match a with
    | ⟨0, _⟩ =>
      show win0_2.index t (0 : Fin 1) * 512 + 1 * (j 1).val = win0_3.index t (1 : Fin 2) * 512 + 1 * (j 1).val
      omega

/-- An index of the result is in point `t`'s block iff each coordinate is in the block's range on its axis. -/
theorem mem_blk (t : Fin cfg0.N) (i : S131072x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v1).slice (win0_3.rect t)).set ↔ _
  rw [View.set_slice_whole, Rect.mem_set_unit]
  exact Iff.rfl

/-- The blocks tile the result: row `r` is in the block of the point whose block index is `r / 2048`. -/
theorem cover (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-- THE RESULT ARRAY after the run is the layer's output of the argument arrays. -/
theorem final (c : Dev nD) :
    (dats m 0 c).arrAt 3 cfg0.N
      = BinLinear.out (m ((c : Thread nD τ).loc main_arg0)) (m ((c : Thread nD τ).loc main_arg1))
          (m ((c : Thread nD τ).loc main_arg2)) :=
  (dats m 0 c).arrAt_eq_of_cover 3 _ (fun t _ => flushed_eq m c t) cover

/-- The kernel's run: it terminates with the result array at the layer's output of the argument arrays, and the
    argument arrays unchanged. -/
theorem run : θ_run defs (onTc (τ := τ) (main (F := Ideal))) ⟨m, fun _ => 0, ρ⟩ fun r => ∀ c : Dev nD,
      r.2.mem ((c : Thread nD τ).loc main_v1)
        = BinLinear.out (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.OutValue

end
-- ==== Proof.RefValue.lean ====
/-
  The reference's result, as the same function of the argument arrays.

  The reference compares every weight with zero, chooses `+1` or `-1`, contracts `x`'s input-feature axis with
  the signs' input-feature axis (the SECOND axis of both operands: entry `(b, o)` is the sum over `i` of
  `x (b, i)` times the sign of `weight (o, i)`), and adds the bias, made a row and repeated down the rows.  Read
  at an index, one operation at a time, this is `BinLinear.out`.
-/
import proofs.«128935_j27994596835418_1_alg».proof.Proof.Gen.ReferenceIdeal.Read
import proofs.«128935_j27994596835418_1_alg».proof.Proof.BinLinear

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's matrix of signs, at an entry, is the sign of the weight's entry. -/
theorem signs_apply (w : S512x512.Idx → EReal) (i : S512x512.Idx) :
    val_main_v3 (F := Ideal) w i = BinLinear.sgn (w i) := by
  rw [val_main_v3_apply, val_main_v2_apply, val_main_v1_apply, val_main_v0_apply, val_main_cst_apply,
    val_main_call0_v0_apply, val_main_cst_0_apply, val_main_call0_v1_apply, val_main_cst_1_apply]
  rfl

/-- The reference's result at the entry `(p, q)`: the sum over the input features `k` of `x (p, k)` times the sign
    of `w (q, k)`, plus `b q`. -/
theorem result_apply (x : S131072x512.Idx → EReal) (w : S512x512.Idx → EReal) (b : S512.Idx → EReal)
    (p : Fin 131072) (q : Fin 512) :
    val_main_v7 (F := Ideal) x w b (ix2 p q)
      = (∑ k : Fin 512, x (ix2 p k) * BinLinear.sgn (w (ix2 q k))) + b (ix1 q) := by
  rw [val_main_v7_apply, val_main_v4_apply, val_main_v6_apply, val_main_v5_apply]
  have hl : ∀ k : Fin 512, lidx_main_v4 (ix2 p q) k = ix2 p k := fun k =>
    funext fun a => Fin.ext (by match a with | ⟨0, _⟩ => rfl | ⟨1, _⟩ => rfl)
  have hr : ∀ k : Fin 512, ridx_main_v4 (ix2 p q) k = ix2 q k := fun k =>
    funext fun a => Fin.ext (by match a with | ⟨0, _⟩ => rfl | ⟨1, _⟩ => rfl)
  have hb : idx_main_v5 (idx_main_v6 (ix2 p q)) = ix1 q :=
    funext fun a => Fin.ext (by match a with | ⟨0, _⟩ => rfl)
  show (∑ k : Fin 512, x (lidx_main_v4 (ix2 p q) k) * val_main_v3 (F := Ideal) w (ridx_main_v4 (ix2 p q) k))
      + b (idx_main_v5 (idx_main_v6 (ix2 p q))) = _
  rw [hb]
  refine congrArg (· + b (ix1 q)) (Finset.sum_congr rfl fun k _ => ?_)
  rw [hl k, hr k, signs_apply]

/-- The reference's result is the layer's output of its arguments. -/
theorem result_eq (x : S131072x512.Idx → EReal) (w : S512x512.Idx → EReal) (b : S512.Idx → EReal) :
    val_main_v7 (F := Ideal) x w b = BinLinear.out x w b := by
  funext i
  obtain ⟨p, q, rfl⟩ : ∃ (p : Fin 131072) (q : Fin 512), i = ix2 p q := ⟨i 0, i 1, eq_ix2 i⟩
  exact result_apply x w b p q

end Cert.ReferenceIdeal.RefValue

end
-- ==== Proof.lean ====
/-
  A linear layer with a binarized weight: the kernel against its reference, over the extended reals.

  Both programs compute, for `x` of 131072 rows by 512 input features, a weight with one row of 512 input features
  per output feature, and a bias of 512 entries,

      out (b, o) = ∑ i, x (b, i) * sgn (weight (o, i)) + bias o,        sgn w = +1 where w ≥ 0, -1 elsewhere

  (`BinLinear.out`).  The reference compares the weight with zero, chooses between the two constants, contracts
  the second axis of `x` with the second axis of the signs, and adds the bias to every row.  The kernel first
  transposes the weight on the host, then goes through the rows of `x` in 64 tiles of 2048: each grid point takes
  one tile, the whole transposed weight and the whole bias, replaces the transposed weight by its signs, multiplies
  the tile by them (a plain matrix product into zero; narrowing the operands to a shorter float format is the
  identity on extended reals) and adds the bias to every row of the product.

  The two agree entry by entry because the transposed weight at `(i, o)` is the weight at `(o, i)`, so the two sums
  have the same terms, and a sum over a finite index set has no order.  The same three float words (zero, one,
  minus one) and the same comparison stand on both sides and are never evaluated.  No law used here fails at an
  infinity, so the precondition (finite inputs) is not opened.

  The frames of the kernel at both instances are the generated ones; the reference's frame is its generated run
  with the result dropped; the idealization changed no operation, so there is nothing to preserve.  The kernel's
  result array as one function of the arguments is `Cert.KernelIdeal.OutValue.run` (what each grid point writes
  back is a block of `BinLinear.out`, and the 64 blocks tile the rows); the reference's is
  `Cert.ReferenceIdeal.RefValue.result_eq` over its generated run.
-/
import proofs.«128935_j27994596835418_1_alg».proof.Defs
import proofs.«128935_j27994596835418_1_alg».proof.Proof.Gen.Kernel
import proofs.«128935_j27994596835418_1_alg».proof.Proof.Gen.Kernel.Skeleton
import proofs.«128935_j27994596835418_1_alg».proof.Proof.Gen.Kernel.Launch
import proofs.«128935_j27994596835418_1_alg».proof.Proof.Gen.Kernel.Points
import proofs.«128935_j27994596835418_1_alg».proof.Proof.Gen.Kernel.Frame
import proofs.«128935_j27994596835418_1_alg».proof.Proof.Gen.KernelIdeal
import proofs.«128935_j27994596835418_1_alg».proof.Proof.Gen.KernelIdeal.Skeleton
import proofs.«128935_j27994596835418_1_alg».proof.Proof.Gen.KernelIdeal.Launch
import proofs.«128935_j27994596835418_1_alg».proof.Proof.Gen.KernelIdeal.Points
import proofs.«128935_j27994596835418_1_alg».proof.Proof.Gen.KernelIdeal.Frame
import proofs.«128935_j27994596835418_1_alg».proof.Proof.Gen.ReferenceIdeal
import proofs.«128935_j27994596835418_1_alg».proof.Proof.Gen.Pre_finite_inputs
import proofs.«128935_j27994596835418_1_alg».proof.Proof.Gen.KernelIdeal.Value
import proofs.«128935_j27994596835418_1_alg».proof.Proof.Gen.ReferenceIdeal.Run
import proofs.«128935_j27994596835418_1_alg».proof.Proof.Gen.ReferenceIdeal.Read
import proofs.«128935_j27994596835418_1_alg».proof.Proof.KernelValue
import proofs.«128935_j27994596835418_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the result array at `BinLinear.out` of the arguments: the
    kernel by its blocks, the reference by its operations read at an index. -/
theorem algebraic : Cert.algebraic_KernelIdeal_ReferenceIdeal := by
  intro m ρ m' ρ' _ hagree
  refine ⟨fun c => BinLinear.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.OutValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
